-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x1 .f32) (main_arg6 : FVec F S256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S64x512x256 .f32) (main_arg1 : IVec S64x512x512 32) (main_arg2 : FVec F S256x1 .f32) (main_arg3 : FVec F S256x1 .f32) (main_arg4 : FVec F S256x1 .f32) (main_arg5 : FVec F S256x1 .f32) (main_arg6 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_v13 main_v16
-- ==== Kernel.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S1x256 : Shape := ⟨2, ![1, 256]⟩
abbrev S2x512x256 : Shape := ⟨3, ![2, 512, 256]⟩
abbrev S2x512x512 : Shape := ⟨3, ![2, 512, 512]⟩
abbrev S1x512x256 : Shape := ⟨3, ![1, 512, 256]⟩
abbrev S512x256 : Shape := ⟨2, ![512, 256]⟩
abbrev S1x512x512 : Shape := ⟨3, ![1, 512, 512]⟩
abbrev S512x512 : Shape := ⟨2, ![512, 512]⟩
abbrev S256x512 : Shape := ⟨2, ![256, 512]⟩

abbrev nBuf : Space → Nat
  | .hbm => 13
  | .vmem => 11
  | .smem => 0
  | _ => 0

abbrev bufTy : (tb : Table) → Fin (tcTables nBuf tb) → BufTy
  | .hbm, ⟨0, _⟩ => ⟨S64x512x256, .f32⟩
  | .hbm, ⟨1, _⟩ => ⟨S64x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S64x512x256, .f32⟩
  | .local _ .vmem, ⟨0, _⟩ => ⟨S2x512x256, .f32⟩
  | .local _ .vmem, ⟨1, _⟩ => ⟨S2x512x256, .f32⟩
  | .local _ .vmem, ⟨2, _⟩ => ⟨S2x512x512, .i32⟩
  | .local _ .vmem, ⟨3, _⟩ => ⟨S2x512x512, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2x512x256, .f32⟩
  | .local _ .vmem, ⟨10, _⟩ => ⟨S2x512x256, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x1_S1x256 : S256x1.ShapeCasts S1x256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  bitsLt_bf16_f32 : FTy.bits .bf16 < FTy.bits .f32
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  broadcasts_S1x256_S512x256 : S1x256.Broadcasts S512x256
  transposes_S512x256_p1_0_S256x512 : S512x256.Transposes [1, 0] S256x512
  shapeCasts_S512x256_S1x512x256 : S512x256.ShapeCasts S1x512x256
  inb_S2x512x256_S1x512x256_1_0_0 : ∀ a, (![1, 0, 0] : Fin 3 → Nat) a + S1x512x256.size a ≤ S2x512x256.size a
  inb_S2x512x512_S1x512x512_1_0_0 : ∀ a, (![1, 0, 0] : Fin 3 → Nat) a + S1x512x512.size a ≤ S2x512x512.size a
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x256.size a ≤ S64x512x256.size a
  hwx0_0 : ∀ i : grid0.Coords, EltTy.bits .f32 = 32 ∨ (Rect.block (s := S64x512x256) S2x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .i32 = 32 ∨ (Rect.block (s := S64x512x512) S2x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x512x256.size a ≤ S64x512x256.size a
  hwx0_7 : ∀ i : grid0.Coords, EltTy.bits .f32 = 32 ∨ (Rect.block (s := S64x512x256) S2x512x256.size (cc0_transform_7 i) (hinb0_7 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S2x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512x512 : Shape := ⟨3, ![64, 512, 512]⟩
abbrev S256x1 : Shape := ⟨2, ![256, 1]⟩
abbrev S256 : Shape := ⟨1, ![256]⟩
abbrev S1x1x256 : Shape := ⟨3, ![1, 1, 256]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S64x512x256, .f32⟩
  | .hbm, ⟨1, _⟩ => ⟨S64x512x512, .i32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S256, .f32⟩
  | .hbm, ⟨8, _⟩ => ⟨S1x1x256, .f32⟩
  | .hbm, ⟨9, _⟩ => ⟨S64x512x256, .f32⟩
  | .hbm, ⟨10, _⟩ => ⟨S64x512x256, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .i1⟩
  | .hbm, ⟨15, _⟩ => ⟨S_, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S256, .f32⟩
  | .hbm, ⟨20, _⟩ => ⟨S1x1x256, .f32⟩
  | .hbm, ⟨21, _⟩ => ⟨S64x512x256, .f32⟩
  | .hbm, ⟨22, _⟩ => ⟨S64x512x256, .f32⟩
  | .hbm, ⟨23, _⟩ => ⟨S64x512x512, .f32⟩
  | .hbm, ⟨24, _⟩ => ⟨S_, .f32⟩
  | .hbm, ⟨25, _⟩ => ⟨S64x512x512, .f32⟩
  | .hbm, ⟨26, _⟩ => ⟨S64x512x512, .i1⟩
  | .hbm, ⟨27, _⟩ => ⟨S_, .f32⟩
  | .hbm, ⟨28, _⟩ => ⟨S64x512x512, .f32⟩
  | .hbm, ⟨29, _⟩ => ⟨S64x512x512, .f32⟩
  | .hbm, ⟨30, _⟩ => ⟨S64x512x512, .f32⟩
  | .hbm, ⟨31, _⟩ => ⟨S256, .f32⟩
  | .hbm, ⟨32, _⟩ => ⟨S1x1x256, .f32⟩
  | .hbm, ⟨33, _⟩ => ⟨S64x512x256, .f32⟩
  | .hbm, ⟨34, _⟩ => ⟨S64x512x256, .f32⟩
  | .hbm, ⟨35, _⟩ => ⟨S64x512x512, .f32⟩
  | .hbm, ⟨36, _⟩ => ⟨S_, .f32⟩
  | .hbm, ⟨37, _⟩ => ⟨S64x512x512, .f32⟩
  | .hbm, ⟨38, _⟩ => ⟨S64x512x512, .i1⟩
  | .hbm, ⟨39, _⟩ => ⟨S_, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S256, .f32⟩
  | .hbm, ⟨44, _⟩ => ⟨S1x1x256, .f32⟩
  | .hbm, ⟨45, _⟩ => ⟨S64x512x256, .f32⟩
  | .hbm, ⟨46, _⟩ => ⟨S64x512x256, .f32⟩
  | .hbm, ⟨47, _⟩ => ⟨S64x512x512, .f32⟩
  | .hbm, ⟨48, _⟩ => ⟨S_, .f32⟩
  | .hbm, ⟨49, _⟩ => ⟨S64x512x512, .f32⟩
  | .hbm, ⟨50, _⟩ => ⟨S64x512x512, .i1⟩
  | .hbm, ⟨51, _⟩ => ⟨S_, .f32⟩
  | .hbm, ⟨52, _⟩ => ⟨S64x512x512, .f32⟩
  | .hbm, ⟨53, _⟩ => ⟨S64x512x512, .f32⟩
  | .hbm, ⟨54, _⟩ => ⟨S64x512x512, .f32⟩
  | .hbm, ⟨55, _⟩ => ⟨S_, .i32⟩
  | .hbm, ⟨56, _⟩ => ⟨S64x512x512, .i32⟩
  | .hbm, ⟨57, _⟩ => ⟨S64x512x512, .i1⟩
  | .hbm, ⟨58, _⟩ => ⟨S_, .f32⟩
  | .hbm, ⟨59, _⟩ => ⟨S64x512x512, .f32⟩
  | .hbm, ⟨60, _⟩ => ⟨S64x512x512, .f32⟩
  | .hbm, ⟨61, _⟩ => ⟨S_, .i32⟩
  | .hbm, ⟨62, _⟩ => ⟨S64x512x512, .i32⟩
  | .hbm, ⟨63, _⟩ => ⟨S64x512x512, .i1⟩
  | .hbm, ⟨64, _⟩ => ⟨S64x512x512, .f32⟩
  | .hbm, ⟨65, _⟩ => ⟨S_, .i32⟩
  | .hbm, ⟨66, _⟩ => ⟨S64x512x512, .i32⟩
  | .hbm, ⟨67, _⟩ => ⟨S64x512x512, .i1⟩
  | .hbm, ⟨68, _⟩ => ⟨S64x512x512, .f32⟩
  | .hbm, ⟨69, _⟩ => ⟨S_, .i32⟩
  | .hbm, ⟨70, _⟩ => ⟨S64x512x512, .i32⟩
  | .hbm, ⟨71, _⟩ => ⟨S64x512x512, .i1⟩
  | .hbm, ⟨72, _⟩ => ⟨S64x512x512, .f32⟩
  | .hbm, ⟨73, _⟩ => ⟨S64x512x512, .f32⟩
  | .hbm, ⟨74, _⟩ => ⟨S64x512x512, .f32⟩
  | .hbm, ⟨75, _⟩ => ⟨S_, .f32⟩
  | .hbm, ⟨76, _⟩ => ⟨S64x512x512, .f32⟩
  | .hbm, ⟨77, _⟩ => ⟨S64x512x512, .f32⟩
  | .hbm, ⟨78, _⟩ => ⟨S_, .f32⟩
  | .hbm, ⟨79, _⟩ => ⟨S64x512x512, .f32⟩
  | .hbm, ⟨80, _⟩ => ⟨S64x512x512, .f32⟩
  | .hbm, ⟨81, _⟩ => ⟨S64x512x256, .f32⟩
  | .hbm, ⟨82, _⟩ => ⟨S1x1x256, .f32⟩
  | .hbm, ⟨83, _⟩ => ⟨S64x512x256, .f32⟩
  | .hbm, ⟨84, _⟩ => ⟨S64x512x256, .f32⟩
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_call4_v0 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  shapeCasts_S256x1_S256 : S256x1.ShapeCasts S256
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  bcast_S_S64x512x512 : S_.BroadcastsInDim S64x512x512 (![] : Fin 0 → Fin S64x512x512.rank)
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.Aggregate.lean ====
/-
  Relation-typed attention aggregation on the extended reals, index by index.

  For one batch element with features `h : [512, 256]`, an integer relation table `r : [512, 512]`, four weight
  vectors `a₀ … a₃ : [256]` and a bias `b : [256]`:
    score_k (p, j) = ∑ d, (h (p, d) · a_k d) · h (j, d)                      (a weighted inner product of rows p and j)
    leaky s        = s where s ≥ 0, else slope · s                           (slope the f32 word of 0.2)
    pre (p, j)     = leaky (score_{k} (p, j)) where r (p, j) = k + 1, the last matching k winning;
                     a large negative fill where r (p, j) matches none of 1 … 4
    out (p, q)     = (∑ j, logistic (pre (p, j)) · h (j, q)) + b q.
  Every sum is a finite sum in the commutative monoid of extended reals, so no order, grouping or tiling of it
  matters; nothing below needs an entry to be finite.
-/
import Idealize.ShloMosaic.PureOps.Ideal
import Idealize.ShloMosaic.PureOps.Ideal.Laws
import Idealize.ShloMosaic.Lib.ValueIdx

noncomputable section

namespace Cert.Aggregate

open Idealize.ShloMosaic Idealize.ShloMosaic.ValueIdx

/-- The weighted inner product of rows `p` and `j` of `h`. -/
def score (h : Fin 512 → Fin 256 → EReal) (a : Fin 256 → EReal) (p j : Fin 512) : EReal :=
  ∑ d : Fin 256, (h p d * a d) * h j d

/-- The leaky rectifier: `s` where `s ≥ 0`, the slope's multiple of `s` elsewhere. -/
def leaky (s : EReal) : EReal :=
  Scalar.select (FloatOps.cmpf (F := Ideal) (φ := .f32) .oge s (Ideal.ofBits .f32 0x00000000#32)) s
    (Ideal.ofBits .f32 0x3E4CCCCD#32 * s)

/-- One step of the relation choice: the candidate where the relation word is `w`, the earlier choice elsewhere. -/
def choose (w r : BitVec 32) (e prev : EReal) : EReal := Scalar.select (IntOp.cmpi .eq r w) e prev

/-- The pre-activation at (p, j): chosen by the relation word among the four rectified scores, over the fill. -/
def pre (h : Fin 512 → Fin 256 → EReal) (r : Fin 512 → Fin 512 → BitVec 32) (a0 a1 a2 a3 : Fin 256 → EReal)
    (p j : Fin 512) : EReal :=
  choose 4#32 (r p j) (leaky (score h a3 p j))
    (choose 3#32 (r p j) (leaky (score h a2 p j))
      (choose 2#32 (r p j) (leaky (score h a1 p j))
        (choose 1#32 (r p j) (leaky (score h a0 p j)) (Ideal.ofBits .f32 0xFF7FFFFF#32))))

/-- One batch element's output at (p, q). -/
def slab (h : Fin 512 → Fin 256 → EReal) (r : Fin 512 → Fin 512 → BitVec 32) (a0 a1 a2 a3 b : Fin 256 → EReal)
    (p : Fin 512) (q : Fin 256) : EReal :=
  (∑ j : Fin 512, Ideal.logistic (pre h r a0 a1 a2 a3 p j) * h j q) + b q

/-- An output entry reads the features, the relation table, the weight vectors and the bias only through their entries:
    operands that agree entry by entry give the same output. -/
theorem slab_congr {h h' : Fin 512 → Fin 256 → EReal} {r r' : Fin 512 → Fin 512 → BitVec 32}
    {a0 a0' a1 a1' a2 a2' a3 a3' b b' : Fin 256 → EReal}
    (hh : ∀ p d, h p d = h' p d) (hr : ∀ p j, r p j = r' p j) (h0 : ∀ d, a0 d = a0' d) (h1 : ∀ d, a1 d = a1' d)
    (h2 : ∀ d, a2 d = a2' d) (h3 : ∀ d, a3 d = a3' d) (hb : ∀ q, b q = b' q) (p : Fin 512) (q : Fin 256) :
    slab h r a0 a1 a2 a3 b p q = slab h' r' a0' a1' a2' a3' b' p q := by
  obtain rfl : h = h' := funext fun p => funext (hh p)
  obtain rfl : r = r' := funext fun p => funext (hr p)
  obtain rfl : a0 = a0' := funext h0
  obtain rfl : a1 = a1' := funext h1
  obtain rfl : a2 = a2' := funext h2
  obtain rfl : a3 = a3' := funext h3
  obtain rfl : b = b' := funext hb
  rfl

/-- The whole result: batch element `i 0` of the features and of the relation table, the weight vectors given as
    [256, 1] columns and the bias as a [256] vector, at row `i 1` and column `i 2`. -/
def G (h : (⟨3, ![64, 512, 256]⟩ : Shape).Idx → EReal) (r : (⟨3, ![64, 512, 512]⟩ : Shape).Idx → BitVec 32)
    (a0 a1 a2 a3 : (⟨2, ![256, 1]⟩ : Shape).Idx → EReal) (b : (⟨1, ![256]⟩ : Shape).Idx → EReal) :
    (⟨3, ![64, 512, 256]⟩ : Shape).Idx → EReal :=
  fun i => slab (fun p d => h (ix3 (i 0) p d)) (fun p j => r (ix3 (i 0) p j))
    (fun d => a0 (ix2 d 0)) (fun d => a1 (ix2 d 0)) (fun d => a2 (ix2 d 0)) (fun d => a3 (ix2 d 0))
    (fun q => b (ix1 q)) (i 1) (i 2)

end Cert.Aggregate

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.SlabBody.lean ====
/-
  What one store of the kernel body writes, as a function of the values it loads.

  The body handles the two batch elements of a block one after the other, with the same operations: four score tiles
  (features scaled by a weight row, times the transposed features), each rectified and chosen by the relation tile
  over a fill, the logistic of the result times the features, plus the bias row. Both stores' payloads unfold to ONE
  vector-level function `outV` of their loads; read at an entry at the ideal values — where a matrix product into a
  zero accumulator is the row-by-column sum and a change of float format is the identity — it is the aggregation's
  slab function `Cert.Aggregate.slab` of the loaded tiles.
-/
import proofs.«102623_j72129680769654_2_alg».proof.Proof.Gen.KernelIdeal.Skeleton
import proofs.«102623_j72129680769654_2_alg».proof.Proof.Aggregate
import proofs.«102623_j72129680769654_2_alg».proof.Proof.LibDense
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Aggregate Idealize.ShloMosaic Idealize.ShloMosaic.ValueIdx

section Vectors

variable {F : FTy → Type} [FloatOps F]

/-- The score tile of one batch element for one weight row: the features scaled column by column by the row, times the
    transposed features, into a zero accumulator. -/
def scoreV (hh : FVec F S512x256 .f32) (hb : FVec F S512x256 .bf16) (arow : FVec F S1x256 .f32) : FVec F S512x512 .f32 :=
  matmul dot_S512x256_S256x512_S512x512_1_0_0_1_n_n none
    (truncf .bf16 (mulf hh (broadcastTo S512x256 arow broadcasts_S1x256_S512x256)) bitsLt_bf16_f32)
    (transpose S256x512 [1, 0] hb transposes_S512x256_p1_0_S256x512) (constant S512x512 .f32 0x00000000#32)

/-- The leaky rectifier of a tile. -/
def leakyV (s : FVec F S512x512 .f32) : FVec F S512x512 .f32 :=
  select (cmpf .oge s (broadcast S512x512 (Scalar.ofBits .f32 0x00000000#32))) s
    (mulf (broadcast S512x512 (Scalar.ofBits .f32 0x3E4CCCCD#32)) s)

/-- One step of the relation choice on a tile. -/
def chooseV (w : BitVec 32) (r : IVec S512x512 32) (e prev : FVec F S512x512 .f32) : FVec F S512x512 .f32 :=
  select (cmpi .eq r (broadcast S512x512 w)) e prev

/-- The pre-activation tile: the four rectified score tiles chosen by the relation tile over the fill. -/
def preV (hh : FVec F S512x256 .f32) (hb : FVec F S512x256 .bf16) (r : IVec S512x512 32) (a0 a1 a2 a3 : FVec F S1x256 .f32) :
    FVec F S512x512 .f32 :=
  chooseV 4#32 r (leakyV (scoreV hh hb a3))
    (chooseV 3#32 r (leakyV (scoreV hh hb a2))
      (chooseV 2#32 r (leakyV (scoreV hh hb a1))
        (chooseV 1#32 r (leakyV (scoreV hh hb a0)) (broadcast S512x512 (Scalar.ofBits .f32 0xFF7FFFFF#32)))))

/-- What one store writes: the logistic of the pre-activation tile times the features, plus the bias row, as a
    [1, 512, 256] block. -/
def outV (hh : FVec F S512x256 .f32) (hb : FVec F S512x256 .bf16) (r : IVec S512x512 32) (a0 a1 a2 a3 bias : FVec F S1x256 .f32) :
    FVec F S1x512x256 .f32 :=
  shapeCast S1x512x256
    (addf (matmul dot_S512x512_S512x256_S512x256_1_0_0_1_n_n none (truncf .bf16 (logistic (preV hh hb r a0 a1 a2 a3)) bitsLt_bf16_f32) hb
        (constant S512x256 .f32 0x00000000#32))
      (broadcastTo S512x256 bias broadcasts_S1x256_S512x256))
    shapeCasts_S512x256_S1x512x256

/-- The first store's payload, over the loads of the first batch element of the blocks, is that function of them. -/
theorem pay_first (l0 : Vec F S1x512x256 .f32) (l1 : Vec F S1x512x512 .i32) (l2 l3 l4 l5 l6 : Vec F S1x256 .f32) :
    k0_pay13 (k0_pay4 l4) (k0_pay5 l5) (k0_pay6 l6) (k0_pay7 l0) (k0_pay8 l0) (k0_pay9 l1) (k0_pay10 l2 l0 l1) (k0_pay11 l3 l0) (k0_pay12 l3 l0)
      = outV (k0_pay7 l0) (k0_pay8 l0) (k0_pay9 l1) (k0_pay2 l2) (k0_pay3 l3) (k0_pay4 l4) (k0_pay5 l5) (k0_pay6 l6) := rfl

/-- The second store's payload, over the loads of the second batch element, is the same function of them. -/
theorem pay_second (l0 : Vec F S1x512x256 .f32) (l1 : Vec F S1x512x512 .i32) (l2 l3 l4 l5 l6 : Vec F S1x256 .f32) :
    k0_pay1 (k0_pay6 l6) (k0_pay14 l0) (k0_pay15 (k0_pay14 l0)) (k0_pay16 l1)
        (k0_pay17 (k0_pay2 l2) (k0_pay3 l3) (k0_pay4 l4) (k0_pay14 l0) l1) (k0_pay18 (k0_pay5 l5))
      = outV (k0_pay14 l0) (k0_pay15 (k0_pay14 l0)) (k0_pay16 l1) (k0_pay2 l2) (k0_pay3 l3) (k0_pay4 l4) (k0_pay5 l5) (k0_pay6 l6) := rfl

end Vectors

/-! ## Read at an index, at the ideal values -/

/-- A [1, 256] row broadcast down 512 rows, at (p, d), is the row's entry d. -/
theorem row_bcast (arow : FVec Ideal S1x256 .f32) (p : Fin 512) (d : Fin 256) :
    broadcastTo S512x256 arow broadcasts_S1x256_S512x256 (ix2 p d) = arow (ix2 0 d) :=
  broadcastTo_apply arow broadcasts_S1x256_S512x256 (ix2 p d) (ix2 0 d) (fun a => by
    match a with
    | ⟨0, _⟩ => rfl
    | ⟨1, _⟩ => rfl)

/-- The transposed features at (d, j) are the features at (j, d). -/
theorem feat_transpose (hb : FVec Ideal S512x256 .bf16) (d : Fin 256) (j : Fin 512) :
    transpose S256x512 [1, 0] hb transposes_S512x256_p1_0_S256x512 (ix2 d j) = hb (ix2 j d) :=
  transpose_apply [1, 0] hb transposes_S512x256_p1_0_S256x512 (ix2 d j) (ix2 j d) (fun b => by
    match b with
    | ⟨0, _⟩ => rfl
    | ⟨1, _⟩ => rfl)

/-- The score tile at (p, j) is the weighted inner product of rows p and j: the product into a zero accumulator is the
    row-by-column sum, the narrowing of the operands changes nothing at the ideal values. -/
theorem scoreV_apply (hh : FVec Ideal S512x256 .f32) (hb : FVec Ideal S512x256 .bf16) (hhb : ∀ i, hb i = hh i)
    (arow : FVec Ideal S1x256 .f32) (p j : Fin 512) :
    scoreV hh hb arow (ix2 p j) = score (fun p d => hh (ix2 p d)) (fun d => arow (ix2 0 d)) p j := by
  unfold scoreV score
  refine (Cert.LibDense.matmul_plain (M := 512) (K := 256) (N := 512) _ _ (ix2 p j)).trans ?_
  unfold Cert.LibDense.prod
  refine Finset.sum_congr rfl fun d _ => ?_
  refine congrArg₂ (· * ·) ?_ ((feat_transpose hb d j).trans (hhb _))
  exact congrArg (hh (ix2 p d) * ·) (row_bcast arow p d)

/-- The pre-activation tile at (p, j): each comparison, selection and product is entrywise. -/
theorem preV_apply (hh : FVec Ideal S512x256 .f32) (hb : FVec Ideal S512x256 .bf16) (hhb : ∀ i, hb i = hh i)
    (r : IVec S512x512 32) (a0 a1 a2 a3 : FVec Ideal S1x256 .f32) (p j : Fin 512) :
    preV hh hb r a0 a1 a2 a3 (ix2 p j)
      = pre (fun p d => hh (ix2 p d)) (fun p j => r (ix2 p j)) (fun d => a0 (ix2 0 d)) (fun d => a1 (ix2 0 d))
          (fun d => a2 (ix2 0 d)) (fun d => a3 (ix2 0 d)) p j := by
  unfold pre
  rw [← scoreV_apply hh hb hhb a0 p j, ← scoreV_apply hh hb hhb a1 p j, ← scoreV_apply hh hb hhb a2 p j,
    ← scoreV_apply hh hb hhb a3 p j]
  rfl

/-- WHAT ONE STORE WRITES, at entry (0, p, q) of its [1, 512, 256] block: the slab function of the loaded features,
    relation tile, weight rows and bias row, at (p, q). -/
theorem outV_apply (hh : FVec Ideal S512x256 .f32) (hb : FVec Ideal S512x256 .bf16) (hhb : ∀ i, hb i = hh i)
    (r : IVec S512x512 32) (a0 a1 a2 a3 bias : FVec Ideal S1x256 .f32) (p : Fin 512) (q : Fin 256) :
    outV hh hb r a0 a1 a2 a3 bias (ix3 0 p q)
      = slab (fun p d => hh (ix2 p d)) (fun p j => r (ix2 p j)) (fun d => a0 (ix2 0 d)) (fun d => a1 (ix2 0 d))
          (fun d => a2 (ix2 0 d)) (fun d => a3 (ix2 0 d)) (fun q => bias (ix2 0 q)) p q := by
  unfold outV slab
  refine (shapeCast_addUnit_apply ![512, 256] _ shapeCasts_S512x256_S1x512x256 (ix3 0 p q)).trans ?_
  have e : (fun a : Fin 2 => (ix3 (0 : Fin 1) p q) a.succ) = ix2 p q :=
    funext fun a => by match a with | ⟨0, _⟩ => rfl | ⟨1, _⟩ => rfl
  refine (congrArg _ e).trans ?_
  refine congrArg₂ (· + ·) ?_ (row_bcast bias p q)
  refine (Cert.LibDense.matmul_plain (M := 512) (K := 512) (N := 256) _ _ (ix2 p q)).trans ?_
  unfold Cert.LibDense.prod
  refine Finset.sum_congr rfl fun j _ => ?_
  refine congrArg₂ (· * ·) ?_ (hhb _)
  exact congrArg Ideal.logistic (preV_apply hh hb hhb r a0 a1 a2 a3 p j)

end Cert.KernelIdeal.Body

end
-- ==== Proof.Blocks.lean ====
/-
  From the kernel's blocks to its result array.

  The grid has 32 points; point `t` stages batch elements 2t and 2t + 1 of the features and of the relation table, and
  the four weight rows and the bias row whole (the host reshapes each [256, 1] column, and the [256] bias, to a [1, 256]
  row before the region). The body stores one [1, 512, 256] tile per batch element; the two tiles cover the output
  block, and each is the aggregation's slab function of its batch element. So point `t` writes back block `t` of the
  aggregation `Cert.Aggregate.G` of the arguments, the 32 blocks tile the result array, and the array ends at `G`.
-/
import proofs.«102623_j72129680769654_2_alg».proof.Proof.Gen.KernelIdeal.Value
import proofs.«102623_j72129680769654_2_alg».proof.Proof.SlabBody
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Body Cert.Aggregate
open Idealize.ShloMosaic Idealize.ShloMosaic.TcCoe Idealize.ShloMosaic.ValueIdx Idealize.SL.Sem
open Idealize.ShloMosaic.Pipeline (Dat)

/-! ## The body's loads, read at an entry -/

theorem zero_offsets : (![0, 0] : Fin 2 → Nat) = fun _ => 0 := funext fun a => by fin_cases a <;> rfl

/-- A weight or bias row is loaded whole. -/
theorem row_load (x : Vec Ideal S1x256 .f32) : shapeCast S1x256 (View.ld x r0_0) shapeCasts_S1x256_S1x256 = x := by
  refine (shapeCast_self (s := S1x256) (View.ld x r0_0) shapeCasts_S1x256_S1x256).trans ?_
  exact View.ld_unit_zero (S := S1x256) zero_offsets _ x

/-- The first batch element of the features' block, loaded with its unit axis dropped, at (p, d). -/
theorem feat_first (x0 : Vec Ideal S2x512x256 .f32) (p : Fin 512) (d : Fin 256) :
    k0_pay7 (View.ld x0 r0_1) (ix2 p d) = x0 (ix3 0 p d) := by
  unfold k0_pay7
  refine (shapeCast_dropUnit_apply ![512, 256] _ shapeCasts_S1x512x256_S512x256 (ix2 p d)).trans ?_
  show x0 (r0_1.idx _) = _
  refine congrArg x0 (funext fun a => Fin.ext ?_)
  match a with
  | ⟨0, _⟩ => rfl
  | ⟨1, _⟩ => show 0 + 1 * p.val = p.val; omega
  | ⟨2, _⟩ => show 0 + 1 * d.val = d.val; omega

/-- The second batch element of the features' block. -/
theorem feat_second (x0 : Vec Ideal S2x512x256 .f32) (p : Fin 512) (d : Fin 256) :
    k0_pay14 (View.ld x0 r0_3) (ix2 p d) = x0 (ix3 1 p d) := by
  unfold k0_pay14
  refine (shapeCast_dropUnit_apply ![512, 256] _ shapeCasts_S1x512x256_S512x256 (ix2 p d)).trans ?_
  show x0 (r0_3.idx _) = _
  refine congrArg x0 (funext fun a => Fin.ext ?_)
  match a with
  | ⟨0, _⟩ => rfl
  | ⟨1, _⟩ => show 0 + 1 * p.val = p.val; omega
  | ⟨2, _⟩ => show 0 + 1 * d.val = d.val; omega

/-- The first batch element of the relation table's block, at (p, j). -/
theorem rel_first (x1 : Vec Ideal S2x512x512 .i32) (p : Fin 512) (j : Fin 512) :
    k0_pay9 (View.ld x1 r0_2) (ix2 p j) = x1 (ix3 0 p j) := by
  unfold k0_pay9
  refine (shapeCast_dropUnit_apply ![512, 512] _ shapeCasts_S1x512x512_S512x512 (ix2 p j)).trans ?_
  show x1 (r0_2.idx _) = _
  refine congrArg x1 (funext fun a => Fin.ext ?_)
  match a with
  | ⟨0, _⟩ => rfl
  | ⟨1, _⟩ => show 0 + 1 * p.val = p.val; omega
  | ⟨2, _⟩ => show 0 + 1 * j.val = j.val; omega

/-- The second batch element of the relation table's block. -/
theorem rel_second (x1 : Vec Ideal S2x512x512 .i32) (p : Fin 512) (j : Fin 512) :
    k0_pay16 (View.ld x1 r0_4) (ix2 p j) = x1 (ix3 1 p j) := by
  unfold k0_pay16
  refine (shapeCast_dropUnit_apply ![512, 512] _ shapeCasts_S1x512x512_S512x512 (ix2 p j)).trans ?_
  show x1 (r0_4.idx _) = _
  refine congrArg x1 (funext fun a => Fin.ext ?_)
  match a with
  | ⟨0, _⟩ => rfl
  | ⟨1, _⟩ => show 0 + 1 * p.val = p.val; omega
  | ⟨2, _⟩ => show 0 + 1 * j.val = j.val; omega

theorem row2 (x : Vec Ideal S1x256 .f32) : k0_pay2 (View.ld x r0_0) = x := row_load x
theorem row3 (x : Vec Ideal S1x256 .f32) : k0_pay3 (View.ld x r0_0) = x := row_load x
theorem row4 (x : Vec Ideal S1x256 .f32) : k0_pay4 (View.ld x r0_0) = x := row_load x
theorem row5 (x : Vec Ideal S1x256 .f32) : k0_pay5 (View.ld x r0_0) = x := row_load x
theorem row6 (x : Vec Ideal S1x256 .f32) : k0_pay6 (View.ld x r0_0) = x := row_load x

/-! ## What the body leaves in the output block -/

/-- The output block as ONE function of the input blocks: entry (e, p, q) is the slab function of batch element `e` of
    the features' and the relation table's blocks and of the five rows, at (p, q). -/
def blockFn (x0 : Vec Ideal S2x512x256 .f32) (x1 : Vec Ideal S2x512x512 .i32) (x2 x3 x4 x5 x6 : Vec Ideal S1x256 .f32) : Vec Ideal S2x512x256 .f32 :=
  fun y => slab (fun p d => x0 (ix3 (y 0) p d)) (fun p j => x1 (ix3 (y 0) p j)) (fun d => x2 (ix2 0 d)) (fun d => x3 (ix2 0 d))
    (fun d => x4 (ix2 0 d)) (fun d => x5 (ix2 0 d)) (fun q => x6 (ix2 0 q)) (y 1) (y 2)

/-- The first store's payload is the tile of the block function its rectangle names. -/
theorem piece_first (x0 : Vec Ideal S2x512x256 .f32) (x1 : Vec Ideal S2x512x512 .i32) (x2 x3 x4 x5 x6 : Vec Ideal S1x256 .f32) (z : S1x512x256.Idx) :
    k0_pay13 (k0_pay4 (View.ld x4 r0_0)) (k0_pay5 (View.ld x5 r0_0)) (k0_pay6 (View.ld x6 r0_0)) (k0_pay7 (View.ld x0 r0_1)) (k0_pay8 (View.ld x0 r0_1)) (k0_pay9 (View.ld x1 r0_2)) (k0_pay10 (View.ld x2 r0_0) (View.ld x0 r0_1) (View.ld x1 r0_2)) (k0_pay11 (View.ld x3 r0_0) (View.ld x0 r0_1)) (k0_pay12 (View.ld x3 r0_0) (View.ld x0 r0_1)) z
      = blockFn x0 x1 x2 x3 x4 x5 x6 (r0_1.emb z) := by
  obtain ⟨e, p, q, rfl⟩ : ∃ (e : Fin 1) (p : Fin 512) (q : Fin 256), z = ix3 e p q := ⟨z 0, z 1, z 2, eq_ix3 z⟩
  obtain rfl : e = 0 := Subsingleton.elim _ _
  have hemb : r0_1.emb (ix3 0 p q) = ix3 0 p q := funext fun a => Fin.ext (by
    match a with
    | ⟨0, _⟩ => rfl
    | ⟨1, _⟩ => show 0 + 1 * p.val = p.val; omega
    | ⟨2, _⟩ => show 0 + 1 * q.val = q.val; omega)
  rw [pay_first, outV_apply (k0_pay7 (View.ld x0 r0_1)) (k0_pay8 (View.ld x0 r0_1)) (fun _ => rfl), hemb]
  simp only [feat_first, rel_first, row2, row3, row4, row5, row6]
  rfl

/-- The second store's payload likewise. -/
theorem piece_second (x0 : Vec Ideal S2x512x256 .f32) (x1 : Vec Ideal S2x512x512 .i32) (x2 x3 x4 x5 x6 : Vec Ideal S1x256 .f32) (z : S1x512x256.Idx) :
    k0_pay1 (k0_pay6 (View.ld x6 r0_0)) (k0_pay14 (View.ld x0 r0_3)) (k0_pay15 (k0_pay14 (View.ld x0 r0_3))) (k0_pay16 (View.ld x1 r0_4)) (k0_pay17 (k0_pay2 (View.ld x2 r0_0)) (k0_pay3 (View.ld x3 r0_0)) (k0_pay4 (View.ld x4 r0_0)) (k0_pay14 (View.ld x0 r0_3)) (View.ld x1 r0_4)) (k0_pay18 (k0_pay5 (View.ld x5 r0_0))) z
      = blockFn x0 x1 x2 x3 x4 x5 x6 (r0_3.emb z) := by
  obtain ⟨e, p, q, rfl⟩ : ∃ (e : Fin 1) (p : Fin 512) (q : Fin 256), z = ix3 e p q := ⟨z 0, z 1, z 2, eq_ix3 z⟩
  obtain rfl : e = 0 := Subsingleton.elim _ _
  have hemb : r0_3.emb (ix3 0 p q) = ix3 1 p q := funext fun a => Fin.ext (by
    match a with
    | ⟨0, _⟩ => rfl
    | ⟨1, _⟩ => show 0 + 1 * p.val = p.val; omega
    | ⟨2, _⟩ => show 0 + 1 * q.val = q.val; omega)
  rw [pay_second, outV_apply (k0_pay14 (View.ld x0 r0_3)) (k0_pay15 (k0_pay14 (View.ld x0 r0_3))) (fun _ => rfl), hemb]
  simp only [feat_second, rel_second, row2, row3, row4, row5, row6]
  rfl

/-- THE OUTPUT BLOCK after the body: the two stores tile it, and each wrote its tile of the block function. -/
theorem out_eq (x0 : Vec Ideal S2x512x256 .f32) (x1 : Vec Ideal S2x512x512 .i32) (x2 x3 x4 x5 x6 : Vec Ideal S1x256 .f32) :
    out0_7 x0 x1 x2 x3 x4 x5 x6 = blockFn x0 x1 x2 x3 x4 x5 x6 := by
  funext y
  unfold out0_7
  refine View.canon_apply_of_pieces (Val := Elt Ideal) (blockFn x0 x1 x2 x3 x4 x5 x6) _ ?_ y (cover0_7 _ _ y)
  intro pc hpc z
  rcases List.mem_cons.mp hpc with rfl | hpc
  · exact piece_second x0 x1 x2 x3 x4 x5 x6 z
  · obtain rfl := List.mem_singleton.mp hpc
    exact piece_first x0 x1 x2 x3 x4 x5 x6 z

/-! ## The arrays as the region finds them -/

variable (m : (ℓ : Loc nD τ sig) → Buf (Elt Ideal) ℓ) (ρ : Dev nD → PrngReg)

/-- The host reshapes each [256, 1] weight column to the [1, 256] row a window stages. -/
theorem V_row0 (c : Dev nD) : (V m c main_v0 : S1x256.Idx → Ideal .f32)
    = shapeCast S1x256 (m ((c : Thread nD τ).loc main_arg2)) shapeCasts_S256x1_S1x256 := by
  dsimp only [Gen.V, Gen.hostOps0]; after_results; rfl
theorem V_row1 (c : Dev nD) : (V m c main_v1 : S1x256.Idx → Ideal .f32)
    = shapeCast S1x256 (m ((c : Thread nD τ).loc main_arg3)) shapeCasts_S256x1_S1x256 := by
  dsimp only [Gen.V, Gen.hostOps0]; after_results; rfl
theorem V_row2 (c : Dev nD) : (V m c main_v2 : S1x256.Idx → Ideal .f32)
    = shapeCast S1x256 (m ((c : Thread nD τ).loc main_arg4)) shapeCasts_S256x1_S1x256 := by
  dsimp only [Gen.V, Gen.hostOps0]; after_results; rfl
theorem V_row3 (c : Dev nD) : (V m c main_v3 : S1x256.Idx → Ideal .f32)
    = shapeCast S1x256 (m ((c : Thread nD τ).loc main_arg5)) shapeCasts_S256x1_S1x256 := by
  dsimp only [Gen.V, Gen.hostOps0]; after_results; rfl
/-- and the [256] bias to a [1, 256] row. -/
theorem V_row4 (c : Dev nD) : (V m c main_v4 : S1x256.Idx → Ideal .f32)
    = shapeCast S1x256 (m ((c : Thread nD τ).loc main_arg6)) shapeCasts_S256_S1x256 := by
  dsimp only [Gen.V, Gen.hostOps0]; after_results; rfl

/-- Entry d of a column reshaped to a row. -/
theorem col_as_row {α : Type} (x : S256x1.Idx → α) (d : Fin 256) :
    shapeCast S1x256 x shapeCasts_S256x1_S1x256 (ix2 0 d) = x (ix2 d 0) :=
  shapeCast_apply x shapeCasts_S256x1_S1x256 (ix2 0 d) (ix2 d 0) (by
    rw [Shape.rowMajor_val_two, Shape.rowMajor_val_two]; show d.val * 1 + 0 = 0 * 256 + d.val; omega)

/-- Entry q of a vector reshaped to a row. -/
theorem vec_as_row {α : Type} (x : S256.Idx → α) (q : Fin 256) :
    shapeCast S1x256 x shapeCasts_S256_S1x256 (ix2 0 q) = x (ix1 q) :=
  shapeCast_apply x shapeCasts_S256_S1x256 (ix2 0 q) (ix1 q) (by
    rw [Shape.rowMajor_val_one, Shape.rowMajor_val_two]; show q.val = 0 * 256 + q.val; omega)

/-- The printed index maps, decided over the 32 grid points: the three batched windows sit at batch block `t`, the
    five rows at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_7.index t (0 : Fin 3) = t.val ∧ win0_7.index t (1 : Fin 3) = 0 ∧ win0_7.index t (2 : Fin 3) = 0)
    ∧ (∀ a : Fin 2, win0_2.index t a = 0 ∧ win0_3.index t a = 0 ∧ win0_4.index t a = 0 ∧ win0_5.index t a = 0
        ∧ win0_6.index t a = 0) :=
  (by decide +kernel : ∀ t : Fin grid0.N, _)

/-! ## The input blocks at a grid point -/

/-- The features' block at point `t` holds batch elements 2t and 2t + 1 of the features. -/
theorem feat_blk (c : Dev nD) (t : Fin cfg0.N) (e : Fin 2) (p : Fin 512) (d : Fin 256) (b : Fin 64)
    (hb : b.val = t.val * 2 + e.val) :
    (iblk m c 0 t : Vec Ideal S2x512x256 .f32) (ix3 e p d)
      = (m ((c : Thread nD τ).loc main_arg0) : S64x512x256.Idx → Elt Ideal .f32) (ix3 b p d) := by
  obtain ⟨h0, h1, h2⟩ := (idx_facts t).1
  unfold iblk
  rw [View.read_apply]
  show V m c main_arg0 _ = _
  rw [V_main_arg0]
  refine congrArg _ (funext fun a => Fin.ext ?_)
  match a with
  | ⟨0, _⟩ => show win0_0.index t (0 : Fin 3) * 2 + 1 * e.val = b.val; rw [h0, hb]; omega
  | ⟨1, _⟩ => show win0_0.index t (1 : Fin 3) * 512 + 1 * p.val = p.val; rw [h1]; omega
  | ⟨2, _⟩ => show win0_0.index t (2 : Fin 3) * 256 + 1 * d.val = d.val; rw [h2]; omega

/-- The relation table's block at point `t` holds the same two batch elements of the table. -/
theorem rel_blk (c : Dev nD) (t : Fin cfg0.N) (e : Fin 2) (p : Fin 512) (j : Fin 512) (b : Fin 64)
    (hb : b.val = t.val * 2 + e.val) :
    (iblk m c 1 t : Vec Ideal S2x512x512 .i32) (ix3 e p j)
      = (m ((c : Thread nD τ).loc main_arg1) : S64x512x512.Idx → Elt Ideal .i32) (ix3 b p j) := by
  obtain ⟨h0, h1, h2⟩ := (idx_facts t).2.1
  unfold iblk
  rw [View.read_apply]
  show V m c main_arg1 _ = _
  rw [V_main_arg1]
  refine congrArg _ (funext fun a => Fin.ext ?_)
  match a with
  | ⟨0, _⟩ => show win0_1.index t (0 : Fin 3) * 2 + 1 * e.val = b.val; rw [h0, hb]; omega
  | ⟨1, _⟩ => show win0_1.index t (1 : Fin 3) * 512 + 1 * p.val = p.val; rw [h1]; omega
  | ⟨2, _⟩ => show win0_1.index t (2 : Fin 3) * 512 + 1 * j.val = j.val; rw [h2]; omega

/-- Each row window's one block is the whole row: a weight column's entries, or the bias vector's. -/
theorem row_blk2 (c : Dev nD) (t : Fin cfg0.N) (d : Fin 256) :
    (iblk m c 2 t : Vec Ideal S1x256 .f32) (ix2 0 d)
      = (m ((c : Thread nD τ).loc main_arg2) : S256x1.Idx → Elt Ideal .f32) (ix2 d 0) := by
  have hr := (idx_facts t).2.2.2
  unfold iblk
  rw [View.read_apply]
  show V m c main_v0 _ = _
  rw [V_row0]
  refine (congrArg _ (funext fun a => Fin.ext ?_)).trans (col_as_row _ d)
  match a with
  | ⟨0, _⟩ => show win0_2.index t (0 : Fin 2) * 1 + 1 * 0 = 0; rw [(hr 0).1]
  | ⟨1, _⟩ => show win0_2.index t (1 : Fin 2) * 256 + 1 * d.val = d.val; rw [(hr 1).1]; omega

theorem row_blk3 (c : Dev nD) (t : Fin cfg0.N) (d : Fin 256) :
    (iblk m c 3 t : Vec Ideal S1x256 .f32) (ix2 0 d)
      = (m ((c : Thread nD τ).loc main_arg3) : S256x1.Idx → Elt Ideal .f32) (ix2 d 0) := by
  have hr := (idx_facts t).2.2.2
  unfold iblk
  rw [View.read_apply]
  show V m c main_v1 _ = _
  rw [V_row1]
  refine (congrArg _ (funext fun a => Fin.ext ?_)).trans (col_as_row _ d)
  match a with
  | ⟨0, _⟩ => show win0_3.index t (0 : Fin 2) * 1 + 1 * 0 = 0; rw [(hr 0).2.1]
  | ⟨1, _⟩ => show win0_3.index t (1 : Fin 2) * 256 + 1 * d.val = d.val; rw [(hr 1).2.1]; omega

theorem row_blk4 (c : Dev nD) (t : Fin cfg0.N) (d : Fin 256) :
    (iblk m c 4 t : Vec Ideal S1x256 .f32) (ix2 0 d)
      = (m ((c : Thread nD τ).loc main_arg4) : S256x1.Idx → Elt Ideal .f32) (ix2 d 0) := by
  have hr := (idx_facts t).2.2.2
  unfold iblk
  rw [View.read_apply]
  show V m c main_v2 _ = _
  rw [V_row2]
  refine (congrArg _ (funext fun a => Fin.ext ?_)).trans (col_as_row _ d)
  match a with
  | ⟨0, _⟩ => show win0_4.index t (0 : Fin 2) * 1 + 1 * 0 = 0; rw [(hr 0).2.2.1]
  | ⟨1, _⟩ => show win0_4.index t (1 : Fin 2) * 256 + 1 * d.val = d.val; rw [(hr 1).2.2.1]; omega

theorem row_blk5 (c : Dev nD) (t : Fin cfg0.N) (d : Fin 256) :
    (iblk m c 5 t : Vec Ideal S1x256 .f32) (ix2 0 d)
      = (m ((c : Thread nD τ).loc main_arg5) : S256x1.Idx → Elt Ideal .f32) (ix2 d 0) := by
  have hr := (idx_facts t).2.2.2
  unfold iblk
  rw [View.read_apply]
  show V m c main_v3 _ = _
  rw [V_row3]
  refine (congrArg _ (funext fun a => Fin.ext ?_)).trans (col_as_row _ d)
  match a with
  | ⟨0, _⟩ => show win0_5.index t (0 : Fin 2) * 1 + 1 * 0 = 0; rw [(hr 0).2.2.2.1]
  | ⟨1, _⟩ => show win0_5.index t (1 : Fin 2) * 256 + 1 * d.val = d.val; rw [(hr 1).2.2.2.1]; omega

theorem row_blk6 (c : Dev nD) (t : Fin cfg0.N) (d : Fin 256) :
    (iblk m c 6 t : Vec Ideal S1x256 .f32) (ix2 0 d)
      = (m ((c : Thread nD τ).loc main_arg6) : S256.Idx → Elt Ideal .f32) (ix1 d) := by
  have hr := (idx_facts t).2.2.2
  unfold iblk
  rw [View.read_apply]
  show V m c main_v4 _ = _
  rw [V_row4]
  refine (congrArg _ (funext fun a => Fin.ext ?_)).trans (vec_as_row _ d)
  match a with
  | ⟨0, _⟩ => show win0_6.index t (0 : Fin 2) * 1 + 1 * 0 = 0; rw [(hr 0).2.2.2.2]
  | ⟨1, _⟩ => show win0_6.index t (1 : Fin 2) * 256 + 1 * d.val = d.val; rw [(hr 1).2.2.2.2]; omega

/-! ## The result array after the run -/

/-- The aggregation of the seven arguments as launched. -/
abbrev result (c : Dev nD) : Buf (Elt Ideal) ((c : Thread nD τ).loc main_v5) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT `t` WRITES BACK is block `t` of the aggregation: the body's block function of the input blocks at
    `t`, each of which is the argument read where the output's rectangle says. -/
theorem flushed_eq (c : Dev nD) (t : Fin cfg0.N) :
    (dats m 0 c).flushed 7 t = ((cfg0.win 7).blk t).view.read (Elt Ideal) (result m c) := by
  rw [Cert.KernelIdeal.Value.flushed7]
  obtain ⟨h0, h1, h2⟩ := (idx_facts t).2.2.1
  funext y
  show out0_7 (iblk m c 0 t) (iblk m c 1 t) (iblk m c 2 t) (iblk m c 3 t) (iblk m c 4 t) (iblk m c 5 t) (iblk m c 6 t) y = result m c (((cfg0.win 7).blk t).view.emb y)
  refine (congrFun (out_eq (iblk m c 0 t) (iblk m c 1 t) (iblk m c 2 t) (iblk m c 3 t) (iblk m c 4 t) (iblk m c 5 t) (iblk m c 6 t)) y).trans ?_
  have hb : ((((cfg0.win 7).blk t).view.emb y) 0).val = t.val * 2 + (y 0).val := by
    show win0_7.index t (0 : Fin 3) * 2 + 1 * (y 0).val = _; rw [h0]; omega
  have e1 : (((cfg0.win 7).blk t).view.emb y) 1 = y 1 := Fin.ext (by
    show win0_7.index t (1 : Fin 3) * 512 + 1 * (y 1).val = (y 1).val; rw [h1]; omega)
  have e2 : (((cfg0.win 7).blk t).view.emb y) 2 = y 2 := Fin.ext (by
    show win0_7.index t (2 : Fin 3) * 256 + 1 * (y 2).val = (y 2).val; rw [h2]; omega)
  show slab _ _ _ _ _ _ _ (y 1) (y 2) = slab _ _ _ _ _ _ _ ((((cfg0.win 7).blk t).view.emb y) 1) ((((cfg0.win 7).blk t).view.emb y) 2)
  rw [e1, e2]
  exact slab_congr (fun p d => feat_blk m c t (y 0) p d _ hb) (fun p j => rel_blk m c t (y 0) p j _ hb)
    (fun d => row_blk2 m c t d) (fun d => row_blk3 m c t d) (fun d => row_blk4 m c t d) (fun d => row_blk5 m c t d)
    (fun q => row_blk6 m c t q) (y 1) (y 2)

/-- An index of the result array is in point `t`'s block iff each coordinate is in the block's range on its axis. -/
theorem mem_blk (t : Fin cfg0.N) (i : S64x512x256.Idx) :
    i ∈ ((cfg0.win 7).blk t).view.set ↔ ∀ a : Fin 3, win0_7.index t a * S2x512x256.size a ≤ (i a).val
      ∧ (i a).val < win0_7.index t a * S2x512x256.size a + S2x512x256.size a := by
  show i ∈ ((View.whole main_v5).slice (win0_7.rect t)).set ↔ _
  rw [View.set_slice_whole, Rect.mem_set_unit]
  exact Iff.rfl

/-- THE COVER: batch element `b` lies in the block of point `b / 2`, every row and column in every block. -/
theorem cover (i : S64x512x256.Idx) :
    ∃ t : Fin cfg0.N, (cfg0.win 7).flush t = true ∧ i ∈ ((cfg0.win 7).blk t).view.set := by
  have hN : cfg0.N = 32 := N_0
  have hi0 : (i 0).val < 64 := (i 0).isLt
  have hi1 : (i 1).val < 512 := (i 1).isLt
  have hi2 : (i 2).val < 256 := (i 2).isLt
  refine ⟨⟨(i 0).val / 2, by rw [hN]; omega⟩, flush0_7 _, ?_⟩
  rw [mem_blk]
  obtain ⟨h0, h1, h2⟩ := (idx_facts ⟨(i 0).val / 2, by rw [hN]; omega⟩).2.2.1
  intro a
  match a with
  | ⟨0, _⟩ =>
    show win0_7.index _ (0 : Fin 3) * 2 ≤ (i 0).val ∧ (i 0).val < win0_7.index _ (0 : Fin 3) * 2 + 2
    rw [h0]; show (i 0).val / 2 * 2 ≤ (i 0).val ∧ (i 0).val < (i 0).val / 2 * 2 + 2; omega
  | ⟨1, _⟩ =>
    show win0_7.index _ (1 : Fin 3) * 512 ≤ (i 1).val ∧ (i 1).val < win0_7.index _ (1 : Fin 3) * 512 + 512
    rw [h1]; omega
  | ⟨2, _⟩ =>
    show win0_7.index _ (2 : Fin 3) * 256 ≤ (i 2).val ∧ (i 2).val < win0_7.index _ (2 : Fin 3) * 256 + 256
    rw [h2]; omega

/-- THE ARRAY after the run is the aggregation of the arguments. -/
theorem final (c : Dev nD) : (dats m 0 c).arrAt 7 cfg0.N = result m c :=
  (dats m 0 c).arrAt_eq_of_cover 7 (result m c) (fun t _ => flushed_eq m c t) cover

/-- THE RUN, read: the result array at the aggregation of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Blocks

end
-- ==== Proof.RefAggregate.lean ====
/-
  The reference program's result, read one operation at a time, is the aggregation `Cert.Aggregate.G` of its
  arguments: each of its four batched contractions is a weighted inner product of two rows of one batch element, its
  four nested selections are the relation choice over the fill, its negate / exponential / add / divide chain is the
  logistic function, and its last contraction and addition are the weighted sum of rows plus the bias.
-/
import proofs.«102623_j72129680769654_2_alg».proof.Proof.Gen.ReferenceIdeal.Read
import proofs.«102623_j72129680769654_2_alg».proof.Proof.Aggregate

noncomputable section

namespace Cert.RefAggregate

open Cert.ReferenceIdeal Cert.ReferenceIdeal.Read Cert.Aggregate Idealize.ShloMosaic Idealize.ShloMosaic.ValueIdx

/-- The reference's contraction for relation type 1, at batch element `b` and rows `p`, `j`: the weight column is read
    through its reshape to a vector and its two broadcasts, which leave entry `d` of the column. -/
theorem score0 (x0 : (⟨S64x512x256, .f32⟩ : BufTy).Contents (Elt Ideal)) (x2 : (⟨S256x1, .f32⟩ : BufTy).Contents (Elt Ideal))
    (b : Fin 64) (p j : Fin 512) :
    val_main_v4 (F := Ideal) x0 x2 (ix3 b p j) = score (fun p d => x0 (ix3 b p d)) (fun d => x2 (ix2 d 0)) p j := by
  rw [val_main_v4_apply]
  unfold score
  refine Finset.sum_congr rfl fun d _ => ?_
  have el : lidx_main_v4 (ix3 b p j) d = ix3 b p d :=
    funext fun a => Fin.ext (by match a with | ⟨0, _⟩ => rfl | ⟨1, _⟩ => rfl | ⟨2, _⟩ => rfl)
  have er : ridx_main_v4 (ix3 b p j) d = ix3 b j d :=
    funext fun a => Fin.ext (by match a with | ⟨0, _⟩ => rfl | ⟨1, _⟩ => rfl | ⟨2, _⟩ => rfl)
  have ea : idx_main_v0 (idx_main_v1 (idx_main_v2 (ix3 b p d))) = ix2 d 0 :=
    funext fun a => Fin.ext (by match a with | ⟨0, _⟩ => exact Nat.div_one _ | ⟨1, _⟩ => rfl)
  rw [el, er, val_main_v3_apply, val_main_v2_apply, val_main_v1_apply, val_main_v0_apply, ea]
  rfl

/-- Its rectified score: the comparison against the zero word and the slope word's multiple are the rectifier's. -/
theorem leaky0 (x0 : (⟨S64x512x256, .f32⟩ : BufTy).Contents (Elt Ideal)) (x2 : (⟨S256x1, .f32⟩ : BufTy).Contents (Elt Ideal))
    (b : Fin 64) (p j : Fin 512) :
    val_main_v9 (F := Ideal) x0 x2 (ix3 b p j) = leaky (score (fun p d => x0 (ix3 b p d)) (fun d => x2 (ix2 d 0)) p j) := by
  rw [val_main_v9_apply, val_main_v6_apply, val_main_v8_apply, val_main_v7_apply, val_main_v5_apply,
    val_main_cst_apply, val_main_cst_0_apply, score0]
  rfl

/-- The reference's contraction for relation type 2, at batch element `b` and rows `p`, `j`: the weight column is read
    through its reshape to a vector and its two broadcasts, which leave entry `d` of the column. -/
theorem score1 (x0 : (⟨S64x512x256, .f32⟩ : BufTy).Contents (Elt Ideal)) (x3 : (⟨S256x1, .f32⟩ : BufTy).Contents (Elt Ideal))
    (b : Fin 64) (p j : Fin 512) :
    val_main_v14 (F := Ideal) x0 x3 (ix3 b p j) = score (fun p d => x0 (ix3 b p d)) (fun d => x3 (ix2 d 0)) p j := by
  rw [val_main_v14_apply]
  unfold score
  refine Finset.sum_congr rfl fun d _ => ?_
  have el : lidx_main_v14 (ix3 b p j) d = ix3 b p d :=
    funext fun a => Fin.ext (by match a with | ⟨0, _⟩ => rfl | ⟨1, _⟩ => rfl | ⟨2, _⟩ => rfl)
  have er : ridx_main_v14 (ix3 b p j) d = ix3 b j d :=
    funext fun a => Fin.ext (by match a with | ⟨0, _⟩ => rfl | ⟨1, _⟩ => rfl | ⟨2, _⟩ => rfl)
  have ea : idx_main_v10 (idx_main_v11 (idx_main_v12 (ix3 b p d))) = ix2 d 0 :=
    funext fun a => Fin.ext (by match a with | ⟨0, _⟩ => exact Nat.div_one _ | ⟨1, _⟩ => rfl)
  rw [el, er, val_main_v13_apply, val_main_v12_apply, val_main_v11_apply, val_main_v10_apply, ea]
  rfl

/-- Its rectified score: the comparison against the zero word and the slope word's multiple are the rectifier's. -/
theorem leaky1 (x0 : (⟨S64x512x256, .f32⟩ : BufTy).Contents (Elt Ideal)) (x3 : (⟨S256x1, .f32⟩ : BufTy).Contents (Elt Ideal))
    (b : Fin 64) (p j : Fin 512) :
    val_main_v19 (F := Ideal) x0 x3 (ix3 b p j) = leaky (score (fun p d => x0 (ix3 b p d)) (fun d => x3 (ix2 d 0)) p j) := by
  rw [val_main_v19_apply, val_main_v16_apply, val_main_v18_apply, val_main_v17_apply, val_main_v15_apply,
    val_main_cst_1_apply, val_main_cst_2_apply, score1]
  rfl

/-- The reference's contraction for relation type 3, at batch element `b` and rows `p`, `j`: the weight column is read
    through its reshape to a vector and its two broadcasts, which leave entry `d` of the column. -/
theorem score2 (x0 : (⟨S64x512x256, .f32⟩ : BufTy).Contents (Elt Ideal)) (x4 : (⟨S256x1, .f32⟩ : BufTy).Contents (Elt Ideal))
    (b : Fin 64) (p j : Fin 512) :
    val_main_v24 (F := Ideal) x0 x4 (ix3 b p j) = score (fun p d => x0 (ix3 b p d)) (fun d => x4 (ix2 d 0)) p j := by
  rw [val_main_v24_apply]
  unfold score
  refine Finset.sum_congr rfl fun d _ => ?_
  have el : lidx_main_v24 (ix3 b p j) d = ix3 b p d :=
    funext fun a => Fin.ext (by match a with | ⟨0, _⟩ => rfl | ⟨1, _⟩ => rfl | ⟨2, _⟩ => rfl)
  have er : ridx_main_v24 (ix3 b p j) d = ix3 b j d :=
    funext fun a => Fin.ext (by match a with | ⟨0, _⟩ => rfl | ⟨1, _⟩ => rfl | ⟨2, _⟩ => rfl)
  have ea : idx_main_v20 (idx_main_v21 (idx_main_v22 (ix3 b p d))) = ix2 d 0 :=
    funext fun a => Fin.ext (by match a with | ⟨0, _⟩ => exact Nat.div_one _ | ⟨1, _⟩ => rfl)
  rw [el, er, val_main_v23_apply, val_main_v22_apply, val_main_v21_apply, val_main_v20_apply, ea]
  rfl

/-- Its rectified score: the comparison against the zero word and the slope word's multiple are the rectifier's. -/
theorem leaky2 (x0 : (⟨S64x512x256, .f32⟩ : BufTy).Contents (Elt Ideal)) (x4 : (⟨S256x1, .f32⟩ : BufTy).Contents (Elt Ideal))
    (b : Fin 64) (p j : Fin 512) :
    val_main_v29 (F := Ideal) x0 x4 (ix3 b p j) = leaky (score (fun p d => x0 (ix3 b p d)) (fun d => x4 (ix2 d 0)) p j) := by
  rw [val_main_v29_apply, val_main_v26_apply, val_main_v28_apply, val_main_v27_apply, val_main_v25_apply,
    val_main_cst_3_apply, val_main_cst_4_apply, score2]
  rfl

/-- The reference's contraction for relation type 4, at batch element `b` and rows `p`, `j`: the weight column is read
    through its reshape to a vector and its two broadcasts, which leave entry `d` of the column. -/
theorem score3 (x0 : (⟨S64x512x256, .f32⟩ : BufTy).Contents (Elt Ideal)) (x5 : (⟨S256x1, .f32⟩ : BufTy).Contents (Elt Ideal))
    (b : Fin 64) (p j : Fin 512) :
    val_main_v34 (F := Ideal) x0 x5 (ix3 b p j) = score (fun p d => x0 (ix3 b p d)) (fun d => x5 (ix2 d 0)) p j := by
  rw [val_main_v34_apply]
  unfold score
  refine Finset.sum_congr rfl fun d _ => ?_
  have el : lidx_main_v34 (ix3 b p j) d = ix3 b p d :=
    funext fun a => Fin.ext (by match a with | ⟨0, _⟩ => rfl | ⟨1, _⟩ => rfl | ⟨2, _⟩ => rfl)
  have er : ridx_main_v34 (ix3 b p j) d = ix3 b j d :=
    funext fun a => Fin.ext (by match a with | ⟨0, _⟩ => rfl | ⟨1, _⟩ => rfl | ⟨2, _⟩ => rfl)
  have ea : idx_main_v30 (idx_main_v31 (idx_main_v32 (ix3 b p d))) = ix2 d 0 :=
    funext fun a => Fin.ext (by match a with | ⟨0, _⟩ => exact Nat.div_one _ | ⟨1, _⟩ => rfl)
  rw [el, er, val_main_v33_apply, val_main_v32_apply, val_main_v31_apply, val_main_v30_apply, ea]
  rfl

/-- Its rectified score: the comparison against the zero word and the slope word's multiple are the rectifier's. -/
theorem leaky3 (x0 : (⟨S64x512x256, .f32⟩ : BufTy).Contents (Elt Ideal)) (x5 : (⟨S256x1, .f32⟩ : BufTy).Contents (Elt Ideal))
    (b : Fin 64) (p j : Fin 512) :
    val_main_v39 (F := Ideal) x0 x5 (ix3 b p j) = leaky (score (fun p d => x0 (ix3 b p d)) (fun d => x5 (ix2 d 0)) p j) := by
  rw [val_main_v39_apply, val_main_v36_apply, val_main_v38_apply, val_main_v37_apply, val_main_v35_apply,
    val_main_cst_5_apply, val_main_cst_6_apply, score3]
  rfl

/-- The four nested selections at (b, p, j): the relation word compared with 1, 2, 3, 4 in turn, the later match
    winning, over the broadcast fill. -/
theorem pre_eq (x0 : (⟨S64x512x256, .f32⟩ : BufTy).Contents (Elt Ideal)) (x1 : (⟨S64x512x512, .i32⟩ : BufTy).Contents (Elt Ideal)) (x2 : (⟨S256x1, .f32⟩ : BufTy).Contents (Elt Ideal)) (x3 : (⟨S256x1, .f32⟩ : BufTy).Contents (Elt Ideal)) (x4 : (⟨S256x1, .f32⟩ : BufTy).Contents (Elt Ideal)) (x5 : (⟨S256x1, .f32⟩ : BufTy).Contents (Elt Ideal))
    (b : Fin 64) (p j : Fin 512) :
    val_main_v51 (F := Ideal) x0 x1 x2 x3 x4 x5 (ix3 b p j)
      = pre (fun p d => x0 (ix3 b p d)) (fun p j => x1 (ix3 b p j)) (fun d => x2 (ix2 d 0)) (fun d => x3 (ix2 d 0))
          (fun d => x4 (ix2 d 0)) (fun d => x5 (ix2 d 0)) p j := by
  rw [val_main_v51_apply, val_main_v50_apply, val_main_v49_apply, val_main_c_10_apply, leaky3,
    val_main_v48_apply, val_main_v47_apply, val_main_v46_apply, val_main_c_9_apply, leaky2,
    val_main_v45_apply, val_main_v44_apply, val_main_v43_apply, val_main_c_8_apply, leaky1,
    val_main_v42_apply, val_main_v41_apply, val_main_v40_apply, val_main_c_apply, leaky0,
    val_main_call4_v0_apply, val_main_cst_7_apply]
  rfl

/-- The f32 word of 1.0 is the extended real 1. -/
theorem one_word : Ideal.ofBits .f32 0x3F800000#32 = 1 := by
  simp [Ideal.ofBits, Ideal.ieee, -EReal.coe_mul]
  norm_num

/-- The reference's `1 / (1 + exp (-x))`, spelt with the host's negation, exponential and division and the word of
    1.0, is the logistic function of the pre-activation. -/
theorem gate_eq (x0 : (⟨S64x512x256, .f32⟩ : BufTy).Contents (Elt Ideal)) (x1 : (⟨S64x512x512, .i32⟩ : BufTy).Contents (Elt Ideal)) (x2 : (⟨S256x1, .f32⟩ : BufTy).Contents (Elt Ideal)) (x3 : (⟨S256x1, .f32⟩ : BufTy).Contents (Elt Ideal)) (x4 : (⟨S256x1, .f32⟩ : BufTy).Contents (Elt Ideal)) (x5 : (⟨S256x1, .f32⟩ : BufTy).Contents (Elt Ideal))
    (b : Fin 64) (p j : Fin 512) :
    val_main_v57 (F := Ideal) x0 x1 x2 x3 x4 x5 (ix3 b p j)
      = Ideal.logistic (pre (fun p d => x0 (ix3 b p d)) (fun p j => x1 (ix3 b p j)) (fun d => x2 (ix2 d 0))
          (fun d => x3 (ix2 d 0)) (fun d => x4 (ix2 d 0)) (fun d => x5 (ix2 d 0)) p j) := by
  rw [val_main_v57_apply, val_main_v56_apply, val_main_cst_12_apply, val_main_v55_apply, val_main_v54_apply,
    val_main_cst_11_apply, val_main_v53_apply, val_main_v52_apply, pre_eq]
  show Ideal.div (Ideal.ofBits .f32 0x3F800000#32) (Ideal.ofBits .f32 0x3F800000#32 + Ideal.exp (-_)) = _
  rw [one_word]
  rfl

/-- THE REFERENCE IS THE AGGREGATION: its last stage, as a function of the seven arguments, is `G` of them. -/
theorem ref_eq (x0 : (⟨S64x512x256, .f32⟩ : BufTy).Contents (Elt Ideal)) (x1 : (⟨S64x512x512, .i32⟩ : BufTy).Contents (Elt Ideal)) (x2 : (⟨S256x1, .f32⟩ : BufTy).Contents (Elt Ideal)) (x3 : (⟨S256x1, .f32⟩ : BufTy).Contents (Elt Ideal)) (x4 : (⟨S256x1, .f32⟩ : BufTy).Contents (Elt Ideal)) (x5 : (⟨S256x1, .f32⟩ : BufTy).Contents (Elt Ideal))
    (x6 : (⟨S256, .f32⟩ : BufTy).Contents (Elt Ideal)) :
    val_main_v61 (F := Ideal) x0 x1 x2 x3 x4 x5 x6 = G x0 x1 x2 x3 x4 x5 x6 := by
  funext i
  obtain ⟨b, p, q, rfl⟩ : ∃ (b : Fin 64) (p : Fin 512) (q : Fin 256), i = ix3 b p q := ⟨i 0, i 1, i 2, eq_ix3 i⟩
  rw [val_main_v61_apply, val_main_v58_apply, val_main_v60_apply, val_main_v59_apply]
  show (∑ k : Fin 512, _) + _ = slab _ _ _ _ _ _ _ p q
  unfold slab
  have eb : idx_main_v59 (idx_main_v60 (ix3 b p q)) = ix1 q :=
    funext fun a => Fin.ext (by match a with | ⟨0, _⟩ => rfl)
  rw [eb]
  refine congrArg (· + x6 (ix1 q)) (Finset.sum_congr rfl fun j _ => ?_)
  have el : lidx_main_v58 (ix3 b p q) j = ix3 b p j :=
    funext fun a => Fin.ext (by match a with | ⟨0, _⟩ => rfl | ⟨1, _⟩ => rfl | ⟨2, _⟩ => rfl)
  have er : ridx_main_v58 (ix3 b p q) j = ix3 b j q :=
    funext fun a => Fin.ext (by match a with | ⟨0, _⟩ => rfl | ⟨1, _⟩ => rfl | ⟨2, _⟩ => rfl)
  rw [el, er, gate_eq]

end Cert.RefAggregate

end
-- ==== Proof.lean ====
/-
  A relation-typed attention aggregation computed in blocks of two batch elements, against its whole-array reference.

  For features `h : [64, 512, 256]`, an integer relation table `r : [64, 512, 512]`, four weight columns
  `a₀ … a₃ : [256, 1]` and a bias `b : [256]`, both programs compute, per batch element,
    out (p, q) = (∑ j, logistic (pre (p, j)) · h (j, q)) + b q,
  where `pre (p, j)` is the leaky-rectified weighted inner product `∑ d, (h (p, d) · a_k d) · h (j, d)` for the `k` with
  `r (p, j) = k + 1`, and a large negative fill where `r (p, j)` is none of 1 … 4 (`Cert.Aggregate.G`).
  The kernel takes two batch elements per grid point, narrows its matrix operands to a shorter float format and
  accumulates into zero, and uses the logistic operation; the reference contracts whole arrays and spells the logistic
  function as `1 / (1 + exp (-x))`. On the extended reals a change of float format is the identity, a matrix product
  into a zero accumulator is the row-by-column sum, and the logistic function IS that quotient, so the two results are
  one function of the arguments; the only joins are re-indexings of finite sums, which hold in any commutative monoid,
  and the precondition (finite inputs) is never opened.
  The kernel's side is `Cert.KernelIdeal.Blocks.run` (the generated frame run, each grid point's write-back read as a
  block of `G`, the blocks tiling the result); the reference's is its generated run, its last stage read as `G`
  (`Cert.RefAggregate.ref_eq`). The idealized kernel is the kernel's own text read on the extended reals — no operation was
  rewritten — so `preserves` has no conjunct.
-/
import proofs.«102623_j72129680769654_2_alg».proof.Defs
import proofs.«102623_j72129680769654_2_alg».proof.Proof.Gen.Kernel
import proofs.«102623_j72129680769654_2_alg».proof.Proof.Gen.Kernel.Skeleton
import proofs.«102623_j72129680769654_2_alg».proof.Proof.Gen.Kernel.Launch
import proofs.«102623_j72129680769654_2_alg».proof.Proof.Gen.Kernel.Points
import proofs.«102623_j72129680769654_2_alg».proof.Proof.Gen.Kernel.Frame
import proofs.«102623_j72129680769654_2_alg».proof.Proof.Gen.KernelIdeal
import proofs.«102623_j72129680769654_2_alg».proof.Proof.Gen.KernelIdeal.Skeleton
import proofs.«102623_j72129680769654_2_alg».proof.Proof.Gen.KernelIdeal.Launch
import proofs.«102623_j72129680769654_2_alg».proof.Proof.Gen.KernelIdeal.Points
import proofs.«102623_j72129680769654_2_alg».proof.Proof.Gen.KernelIdeal.Frame
import proofs.«102623_j72129680769654_2_alg».proof.Proof.Gen.ReferenceIdeal
import proofs.«102623_j72129680769654_2_alg».proof.Proof.Gen.Pre_finite_inputs
import proofs.«102623_j72129680769654_2_alg».proof.Proof.Gen.KernelIdeal.Value
import proofs.«102623_j72129680769654_2_alg».proof.Proof.Gen.ReferenceIdeal.Run
import proofs.«102623_j72129680769654_2_alg».proof.Proof.Gen.ReferenceIdeal.Read
import proofs.«102623_j72129680769654_2_alg».proof.Proof.Blocks
import proofs.«102623_j72129680769654_2_alg».proof.Proof.RefAggregate
import Idealize.ShloMosaic.Adequacy
import Idealize.ShloMosaic.Init

noncomputable section

namespace Cert.Proof

open Idealize.ShloMosaic Idealize.SL.Sem

/-- The word-level kernel runs and leaves its arguments alone: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments both programs end with the aggregation of those arguments in their result
    arrays: the kernel by its blocks, the reference by its last stage. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.RefAggregate.ref_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
